-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CaseValues.lean ====
/-
  What each control case of the kernel body leaves behind, as values.  The body keeps a 1024 x 1024 accumulator in a
  scratch buffer: at the first step of a contraction sweep it is cleared and the first partial product added, at
  every later step the step's partial product is added to what the step before left, and at the last step the
  accumulator is also scaled column-wise, shifted by the bias row and stored to the output block.
-/
import proofs.«173538_j81750407512101_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RefValue

open Cert.KernelIdeal Cert.KernelIdeal.Gen

variable {F : FTy → Type} [FloatOps F]

/-- Both offsets of every load and store in the body are zero: each goes through the whole of its buffer. -/
private theorem zero_offsets : (![0, 0] : Fin 2 → Nat) = fun _ => 0 := funext fun a => by fin_cases a <;> rfl

/-- First step of a sweep: the accumulator ends at the cleared block plus the step's partial product. -/
theorem scratch_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .bf16) (x1 : Vec F S1024x512 .bf16) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  -- The scratch is covered by what was stored, so it reads as the stores' canonical contents: the last store wins.
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  -- The last store is of the whole block; the accumulator it adds to is the read-back of the cleared block.
  rw [View.canon_cons_unit_zero (S := S1024x1024) zero_offsets, View.readCov_unit_zero (S := S1024x1024) _ zero_offsets]
  -- The two operand loads read their whole buffers.
  simp only [View.readAt_eq_ld, harg3.read_unread, harg4.read_unread, View.ld_unit_zero (S := S1024x512) zero_offsets]

/-- A middle step: the accumulator ends at what it held plus the step's partial product. -/
theorem scratch_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .bf16) (x1 : Vec F S1024x512 .bf16) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  -- One store of the whole block; its three loads read their whole buffers.
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero (S := S1024x1024) zero_offsets]
  simp only [View.readAt_eq_ld, harg3.read_unread, harg4.read_unread, harg8.read_unread,
    View.ld_unit_zero (S := S1024x512) zero_offsets, View.ld_unit_zero (S := S1024x1024) zero_offsets]

/-- The last step: the accumulator likewise, -/
theorem scratch_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .bf16) (x1 : Vec F S1024x512 .bf16) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  -- As in a middle step: one store of the whole block over whole-buffer loads.
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) zero_offsets]
  simp only [View.readAt_eq_ld, harg3.read_unread, harg4.read_unread, harg8.read_unread,
    View.ld_unit_zero (S := S1024x512) zero_offsets, View.ld_unit_zero (S := S1024x1024) zero_offsets]

/-- and the output block is the finished accumulator scaled by the scale row and shifted by the bias row. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .bf16) (x1 : Vec F S1024x512 .bf16) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  -- One store of the whole output block; the accumulator it scales is the read-back of the step's one scratch store,
  -- and the scale and bias rows are whole-buffer loads.
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) zero_offsets, View.readCov_unit_zero (S := S1024x1024) _ zero_offsets]
  simp only [View.readAt_eq_ld, harg3.read_unread, harg4.read_unread, harg5.read_unread, harg6.read_unread, harg8.read_unread,
    View.ld_unit_zero (S := S1024x512) zero_offsets, View.ld_unit_zero (S := S1x1024) zero_offsets,
    View.ld_unit_zero (S := S1024x1024) zero_offsets]

end Cert.KernelIdeal.RefValue

end
-- ==== Proof.Payloads.lean ====
/-
  The body's three stored values read at one element, over the extended reals: the cleared accumulator is zero; a
  step adds to the accumulator's element (r, c) the sum over the step's 512 contraction positions of the products
  of row r of the left block and row c of the right block; the last step multiplies element (r, c) by the scale
  of column c and adds the bias of column c.
-/
import proofs.«173538_j81750407512101_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.RefValue

open Cert.KernelIdeal Cert.KernelIdeal.Gen

/-! ## The step's matrix product at one element

Both operands are contracted along their second axis; the result's row comes from the left operand's first axis
and its column from the right operand's first axis. -/

/-- The left operand's row is the result's row. -/
theorem lhs_row (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- The left operand's column is the contraction position. -/
theorem lhs_col (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q

/-- The right operand's row is the result's column. -/
theorem rhs_row (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The right operand's column is the contraction position. -/
theorem rhs_col (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- The product into a zero accumulator, at element (r, c): the 512 products of row r of the left operand with row c
    of the right operand. -/
theorem matmul_zero_apply (x0 x1 : FVec Ideal S1024x512 .bf16) (r cc : Fin 1024) :
    matmul dot_S1024x512_S1024x512_S1024x1024_1_1_0_0_n_n none x0 x1 (constant (F := Ideal) S1024x1024 .f32 0x00000000#32) (ix2 r cc)
      = ∑ i : Fin 512, x0 (ix2 r i) * x1 (ix2 cc i) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r cc) ((ValueIdx.contrEquiv1 dot_S1024x512_S1024x512_S1024x1024_1_1_0_0_n_n 512 rfl rfl).symm k) = ix2 r k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 r cc) ((ValueIdx.contrEquiv1 dot_S1024x512_S1024x512_S1024x1024_1_1_0_0_n_n 512 rfl rfl).symm k) = ix2 cc k := funext fun a => Fin.ext (by
    match a with
    | ⟨0, _⟩ => exact rhs_row _ _
    | ⟨1, _⟩ => exact (rhs_col _ _).trans hk)
  rw [el, er]

/-! ## The three stored values -/

/-- The cleared accumulator is zero everywhere. -/
theorem pay1_apply (j : S1024x1024.Idx) : k0_pay1 (F := Ideal) j = (0 : EReal) := by
  unfold k0_pay1
  show shapeCast S1024x1024 (broadcast S1024x1024 (Scalar.ofBits (F := Ideal) .f32 0x00000000#32)) shapeCasts_S1024x1024_S1024x1024 j = 0
  rw [shapeCast_self]
  exact Ideal.ofBits_zero_f32

/-- One step at element (r, c): the accumulator's element plus the step's 512 products. -/
theorem pay2_apply (x0 x1 : Vec Ideal S1024x512 .bf16) (acc : Vec Ideal S1024x1024 .f32) (r cc : Fin 1024) :
    k0_pay2 (F := Ideal) x0 x1 acc (ix2 r cc) = (acc (ix2 r cc) : EReal) + ∑ i : Fin 512, (x0 (ix2 r i) : EReal) * (x1 (ix2 cc i) : EReal) := by
  unfold k0_pay2
  show shapeCast S1024x1024 (addf (F := Ideal) acc (matmul dot_S1024x512_S1024x512_S1024x1024_1_1_0_0_n_n none
      (shapeCast S1024x512 x0 shapeCasts_S1024x512_S1024x512) (shapeCast S1024x512 x1 shapeCasts_S1024x512_S1024x512)
      (constant (F := Ideal) S1024x1024 .f32 0x00000000#32))) shapeCasts_S1024x1024_S1024x1024 (ix2 r cc) = _
  rw [shapeCast_self, shapeCast_self, shapeCast_self]
  exact congrArg (acc (ix2 r cc) + ·) (matmul_zero_apply x0 x1 r cc)

/-- The epilogue at element (r, c): scale of column c times the accumulator's element, plus the bias of column c. -/
theorem pay3_apply (s b : Vec Ideal S1x1024 .f32) (acc : Vec Ideal S1024x1024 .f32) (r cc : Fin 1024) :
    k0_pay3 (F := Ideal) s b acc (ix2 r cc) = (acc (ix2 r cc) : EReal) * (s (ix2 0 cc) : EReal) + (b (ix2 0 cc) : EReal) := by
  unfold k0_pay3
  show addf (F := Ideal) (mulf (F := Ideal) acc (broadcastTo S1024x1024 (shapeCast S1x1024 s shapeCasts_S1x1024_S1x1024) broadcasts_S1x1024_S1024x1024))
      (broadcastTo S1024x1024 (shapeCast S1x1024 b shapeCasts_S1x1024_S1x1024) broadcasts_S1x1024_S1024x1024) (ix2 r cc) = _
  rw [shapeCast_self, shapeCast_self]
  show acc (ix2 r cc) * broadcastTo S1024x1024 s broadcasts_S1x1024_S1024x1024 (ix2 r cc)
      + broadcastTo S1024x1024 b broadcasts_S1x1024_S1024x1024 (ix2 r cc) = _
  rw [broadcastTo_1b_ab_apply, broadcastTo_1b_ab_apply]

end Cert.KernelIdeal.RefValue

end
-- ==== Proof.Blocks.lean ====
/-
  Where each window's block sits in its array.  The grid point t stands for (t / 32, (t / 8) % 4, t % 8): row
  tile, column tile and contraction step.  The left operand's block holds rows 1024 (t / 32) + r and contraction
  positions 512 (t % 8) + q; the right operand's block holds rows 1024 ((t / 8) % 4) + r and the same contraction
  positions; the scale and bias rows' blocks hold columns 1024 ((t / 8) % 4) + q.
-/
import proofs.«173538_j81750407512101_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.RefValue

open Cert.KernelIdeal Cert.KernelIdeal.Gen

variable {F : FTy → Type} [FloatOps F]
variable (m : (ℓ : Loc nD τ sig) → Buf (Elt F) ℓ)

/-- Where each window's block sits, as a function of the point t = (t / 32, (t / 8) % 4, t % 8): the block index
    the window's index map gives at t, axis by axis, decided once over the 256 points of the grid. -/
theorem index0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

theorem index1 : ∀ t : Fin cfg0.N, win0_1.index t (0 : Fin 2) = (t.val / 8) % 4 ∧ win0_1.index t (1 : Fin 2) = t.val % 8 :=
  (by decide +kernel : ∀ t : Fin grid0.N, win0_1.index t (0 : Fin 2) = (t.val / 8) % 4 ∧ win0_1.index t (1 : Fin 2) = t.val % 8)

theorem index2 : ∀ t : Fin cfg0.N, win0_2.index t (0 : Fin 2) = 0 ∧ win0_2.index t (1 : Fin 2) = (t.val / 8) % 4 :=
  (by decide +kernel : ∀ t : Fin grid0.N, win0_2.index t (0 : Fin 2) = 0 ∧ win0_2.index t (1 : Fin 2) = (t.val / 8) % 4)

theorem index3 : ∀ t : Fin cfg0.N, win0_3.index t (0 : Fin 2) = 0 ∧ win0_3.index t (1 : Fin 2) = (t.val / 8) % 4 :=
  (by decide +kernel : ∀ t : Fin grid0.N, win0_3.index t (0 : Fin 2) = 0 ∧ win0_3.index t (1 : Fin 2) = (t.val / 8) % 4)

/-- The left operand's block at point t, element (r, q). -/
theorem blk0_apply (c : Dev nD) (t : Fin cfg0.N) (r : Fin 1024) (q : Fin 512) (p : Fin 8192) (kk : Fin 4096)
    (hp : p.val = 1024 * (t.val / 32) + r.val) (hk : kk.val = 512 * (t.val % 8) + q.val) :
    (iblk m c 0 t : Vec F S1024x512 .bf16) (ix2 r q) = V m c main_v1 (ix2 p kk) := by
  unfold iblk
  rw [View.read_apply]
  show V m c main_v1 _ = V m c main_v1 _
  congr 1
  funext a
  apply Fin.ext
  -- along each axis the block's element sits at (block index) × (block extent) + (position inside the block)
  match a with
  | ⟨0, _⟩ => show win0_0.index t 0 * 1024 + 1 * r.val = p.val; rw [(index0 t).1]; omega
  | ⟨1, _⟩ => show win0_0.index t 1 * 512 + 1 * q.val = kk.val; rw [(index0 t).2]; omega

/-- The right operand's block at point t, element (r, q). -/
theorem blk1_apply (c : Dev nD) (t : Fin cfg0.N) (r : Fin 1024) (q : Fin 512) (o : Fin 4096) (kk : Fin 4096)
    (ho : o.val = 1024 * ((t.val / 8) % 4) + r.val) (hk : kk.val = 512 * (t.val % 8) + q.val) :
    (iblk m c 1 t : Vec F S1024x512 .bf16) (ix2 r q) = V m c main_v2 (ix2 o kk) := by
  unfold iblk
  rw [View.read_apply]
  show V m c main_v2 _ = V m c main_v2 _
  congr 1
  funext a
  apply Fin.ext
  match a with
  | ⟨0, _⟩ => show win0_1.index t 0 * 1024 + 1 * r.val = o.val; rw [(index1 t).1]; omega
  | ⟨1, _⟩ => show win0_1.index t 1 * 512 + 1 * q.val = kk.val; rw [(index1 t).2]; omega

/-- The scale row's block at point t, element (0, q). -/
theorem blk2_apply (c : Dev nD) (t : Fin cfg0.N) (q : Fin 1024) (o : Fin 4096)
    (ho : o.val = 1024 * ((t.val / 8) % 4) + q.val) :
    (iblk m c 2 t : Vec F S1x1024 .f32) (ix2 0 q) = V m c main_v3 (ix2 0 o) := by
  unfold iblk
  rw [View.read_apply]
  show V m c main_v3 _ = V m c main_v3 _
  congr 1
  funext a
  apply Fin.ext
  match a with
  | ⟨0, _⟩ => show win0_2.index t 0 * 1 + 1 * (0 : Fin 1).val = (0 : Fin 1).val; rw [(index2 t).1]; omega
  | ⟨1, _⟩ => show win0_2.index t 1 * 1024 + 1 * q.val = o.val; rw [(index2 t).2]; omega

/-- The bias row's block at point t, element (0, q). -/
theorem blk3_apply (c : Dev nD) (t : Fin cfg0.N) (q : Fin 1024) (o : Fin 4096)
    (ho : o.val = 1024 * ((t.val / 8) % 4) + q.val) :
    (iblk m c 3 t : Vec F S1x1024 .f32) (ix2 0 q) = V m c main_v4 (ix2 0 o) := by
  unfold iblk
  rw [View.read_apply]
  show V m c main_v4 _ = V m c main_v4 _
  congr 1
  funext a
  apply Fin.ext
  match a with
  | ⟨0, _⟩ => show win0_3.index t 0 * 1 + 1 * (0 : Fin 1).val = (0 : Fin 1).val; rw [(index3 t).1]; omega
  | ⟨1, _⟩ => show win0_3.index t 1 * 1024 + 1 * q.val = o.val; rw [(index3 t).2]; omega

end Cert.KernelIdeal.RefValue

end
-- ==== Proof.Algebra.lean ====
/-
  The two laws that join the programs, on the extended reals.  (1) An accumulator that starts from zero and adds
  one block of 512 consecutive terms per step holds, after eight steps, the sum of all 4096 terms: addition of
  extended reals is commutative and associative, so no finiteness is needed.  (2) A finite sum of products of real
  numbers scaled once by a real factor is the sum with the factor moved inside every term: this is distributivity,
  which fails at the infinities, so the factors are assumed real.
-/
import Mathlib

open scoped BigOperators

namespace Cert.Bridge

/-- The accumulator after step n (steps counted from 0) over the terms f 0, f 1, …: zero plus the first 512 terms,
    then 512 more per step. -/
noncomputable def chain (f : ℕ → EReal) : ℕ → EReal
  | 0 => 0 + ∑ i : Fin 512, f i.val
  | n + 1 => chain f n + ∑ i : Fin 512, f (512 * (n + 1) + i.val)

/-- After step n the accumulator is the sum of the first 512 * (n + 1) terms: the leading zero is absorbed, and
    a sum over the first a + b naturals splits into the first a and the next b. -/
theorem chain_eq_sum_range (f : ℕ → EReal) : ∀ n, chain f n = ∑ k ∈ Finset.range (512 * (n + 1)), f k
  | 0 => by
    rw [chain, zero_add, ← Finset.sum_range f]
  | n + 1 => by
    have hsplit : 512 * (n + 1 + 1) = 512 * (n + 1) + 512 := by omega
    rw [chain, chain_eq_sum_range f n, hsplit, Finset.sum_range_add,
      ← Finset.sum_range fun i => f (512 * (n + 1) + i)]

/-- After the eighth step the accumulator is the sum of all 4096 terms. -/
theorem chain_eq_sum (f : ℕ → EReal) : chain f 7 = ∑ k : Fin 4096, f k.val := by
  rw [chain_eq_sum_range f 7, ← Finset.sum_range f]

/-- The inclusion of the reals in the extended reals carries a finite sum to the sum of the images. -/
private theorem coe_finset_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- Scaling a sum of products of reals by a real is scaling the second factor of every product. -/
theorem sum_mul_of_real {n : ℕ} (x w : Fin n → EReal) (s : EReal) (hx : ∀ k, ∃ r : ℝ, x k = (r : EReal))
    (hw : ∀ k, ∃ r : ℝ, w k = (r : EReal)) (hs : ∃ r : ℝ, s = (r : EReal)) :
    (∑ k, x k * w k) * s = ∑ k, x k * (w k * s) := by
  choose xr hxr using hx
  choose wr hwr using hw
  obtain ⟨sr, rfl⟩ := hs
  obtain rfl : x = fun k => (xr k : EReal) := funext hxr
  obtain rfl : w = fun k => (wr k : EReal) := funext hwr
  -- every quantity is now the image of a real one: compute in the reals, where multiplication distributes
  simp only [← EReal.coe_mul, ← coe_finset_sum]
  congr 1
  rw [Finset.sum_mul]
  exact Finset.sum_congr rfl fun k _ => mul_assoc _ _ _

end Cert.Bridge
-- ==== Proof.Spec.lean ====
/-
  The kernel's result as ONE function of the four arrays its windows read.  For the flattened activations A1
  [8192, 4096], the real weights A2 [4096, 4096] and the scale and bias rows A3, A4 [1, 4096], element (p, o) of the
  [8192, 4096] product array is the accumulator after the eighth contraction step — zero plus the 4096 products
  A1 (p, k) · A2 (o, k), added 512 at a time — scaled by A3 (0, o) and shifted by A4 (0, o).
-/
import proofs.«173538_j81750407512101_2_alg».proof.Proof.Algebra
import Idealize.ShloMosaic.PureOps.Ideal
import Idealize.ShloMosaic.Lib.ValueIdx

noncomputable section

open Idealize.ShloMosaic Idealize.ShloMosaic.ValueIdx

namespace Cert.Bridge

/-- The product at contraction position kk of row p of A1 and row o of A2 (zero past the last position, which no
    sum below reaches). -/
def term (A1 : (⟨2, ![8192, 4096]⟩ : Shape).Idx → EReal) (A2 : (⟨2, ![4096, 4096]⟩ : Shape).Idx → EReal)
    (p : Fin 8192) (o : Fin 4096) : ℕ → EReal :=
  fun kk => if h : kk < 4096 then A1 (ix2 p ⟨kk, h⟩) * A2 (ix2 o ⟨kk, h⟩) else 0

theorem term_lt (A1 : (⟨2, ![8192, 4096]⟩ : Shape).Idx → EReal) (A2 : (⟨2, ![4096, 4096]⟩ : Shape).Idx → EReal)
    (p : Fin 8192) (o : Fin 4096) (kk : ℕ) (k : Fin 4096) (h : kk = k.val) :
    term A1 A2 p o kk = A1 (ix2 p k) * A2 (ix2 o k) := by
  subst h
  unfold term
  rw [dif_pos k.isLt]

/-- The product array: element (p, o) is the eight-step accumulator of row p against row o, scaled and shifted. -/
def G2d (A1 : (⟨2, ![8192, 4096]⟩ : Shape).Idx → EReal) (A2 : (⟨2, ![4096, 4096]⟩ : Shape).Idx → EReal)
    (A3 A4 : (⟨2, ![1, 4096]⟩ : Shape).Idx → EReal) : (⟨2, ![8192, 4096]⟩ : Shape).Idx → EReal :=
  fun j => chain (term A1 A2 (j 0) (j 1)) 7 * A3 (ix2 0 (j 1)) + A4 (ix2 0 (j 1))

end Cert.Bridge

end
-- ==== Proof.Accumulate.lean ====
/-
  The accumulator across the grid.  Point t = (t / 32, (t / 8) % 4, t % 8) is contraction step t % 8 of output tile
  (t / 32, (t / 8) % 4).  The scratch accumulator after point t is, element by element, the partial sum of the first
  512 (t % 8 + 1) products of the tile's rows: cleared and restarted when t % 8 = 0, carried from the point before
  otherwise.  At the points with t % 8 = 7 the output block is that finished sum scaled and shifted.
-/
import proofs.«173538_j81750407512101_2_alg».proof.Proof.CaseValues
import proofs.«173538_j81750407512101_2_alg».proof.Proof.Payloads
import proofs.«173538_j81750407512101_2_alg».proof.Proof.Blocks
import proofs.«173538_j81750407512101_2_alg».proof.Proof.Spec

noncomputable section

open Idealize.ShloMosaic Idealize.ShloMosaic.TcCoe Idealize.SL.Sem Idealize.ShloMosaic.ValueIdx

namespace Cert.KernelIdeal.RefValue

open Cert.KernelIdeal Cert.KernelIdeal.Gen Cert.Bridge

section AnyInstance

variable {F : FTy → Type} [FloatOps F]
variable (m : (ℓ : Loc nD τ sig) → Buf (Elt F) ℓ)

/-- The scratch accumulator after point n, as a chain of steps: restarted from the cleared block at the first
    step of a sweep, continued from the point before otherwise. -/
def accV (c : Dev nD) : (n : ℕ) → n < cfg0.N → Vec F S1024x1024 .f32
  | 0, h => k0_pay2 (iblk m c 0 ⟨0, h⟩) (iblk m c 1 ⟨0, h⟩) (k0_pay1 (F := F))
  | n + 1, h =>
    if (n + 1) % 8 = 0 then k0_pay2 (iblk m c 0 ⟨n + 1, h⟩) (iblk m c 1 ⟨n + 1, h⟩) (k0_pay1 (F := F))
    else k0_pay2 (iblk m c 0 ⟨n + 1, h⟩) (iblk m c 1 ⟨n + 1, h⟩) (accV c n (Nat.lt_of_succ_lt h))

theorem accV_restart (c : Dev nD) (n : ℕ) (h : n < cfg0.N) (h0 : n % 8 = 0) :
    accV m c n h = k0_pay2 (iblk m c 0 ⟨n, h⟩) (iblk m c 1 ⟨n, h⟩) (k0_pay1 (F := F)) := by
  cases n with
  | zero => rfl
  | succ n => unfold accV; rw [if_pos h0]

theorem accV_step (c : Dev nD) (n : ℕ) (h : n + 1 < cfg0.N) (h0 : ¬(n + 1) % 8 = 0) :
    accV m c (n + 1) h = k0_pay2 (iblk m c 0 ⟨n + 1, h⟩) (iblk m c 1 ⟨n + 1, h⟩) (accV m c n (Nat.lt_of_succ_lt h)) := by
  rw [accV, if_neg h0]

/-- What the frame's point-by-point record holds in the scratch after a first step of a sweep, -/
theorem rec_A (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  have e := congrArg Prod.snd (outsAt0_A m c t h0 h1)
  dsimp only at e
  exact e.trans
    (scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- after a middle step, -/
theorem rec_B (c : Dev nD) (t : Fin cfg0.N) (h0 : ¬t.val % 8 = 0) (h1 : ¬t.val % 8 = 7) :
    (outsAt0 m c t.val t.isLt).2 = k0_pay2 (iblk m c 0 t) (iblk m c 1 t)
      (outsAt0 m c (t.val - 1) (Nat.lt_of_le_of_lt (Nat.sub_le _ _) t.isLt)).2 := by
  have e := congrArg Prod.snd (outsAt0_B m c t h0 h1)
  dsimp only at e
  exact e.trans
    (scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _)

/-- and after a last step, in the scratch and in the output block. -/
theorem rec_C (c : Dev nD) (t : Fin cfg0.N) (h0 : ¬t.val % 8 = 0) (h1 : t.val % 8 = 7) :
    (outsAt0 m c t.val t.isLt).2 = k0_pay2 (iblk m c 0 t) (iblk m c 1 t)
      (outsAt0 m c (t.val - 1) (Nat.lt_of_le_of_lt (Nat.sub_le _ _) t.isLt)).2 := by
  have e := congrArg Prod.snd (outsAt0_C m c t h0 h1)
  dsimp only at e
  exact e.trans
    (scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _)

theorem rec_C_out (c : Dev nD) (t : Fin cfg0.N) (h0 : ¬t.val % 8 = 0) (h1 : t.val % 8 = 7) :
    (outsAt0 m c t.val t.isLt).1 = k0_pay3 (iblk m c 2 t) (iblk m c 3 t) (k0_pay2 (iblk m c 0 t) (iblk m c 1 t)
      (outsAt0 m c (t.val - 1) (Nat.lt_of_le_of_lt (Nat.sub_le _ _) t.isLt)).2) := by
  have e := congrArg Prod.fst (outsAt0_C m c t h0 h1)
  dsimp only at e
  exact e.trans
    (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _)

/-- The record's scratch component IS the chain of steps, by induction on the point. -/
theorem rec_scratch (c : Dev nD) : ∀ (n : ℕ) (h : n < cfg0.N), (outsAt0 m c n h).2 = accV m c n h
  | 0, h => (rec_A m c ⟨0, h⟩ (Nat.zero_mod _)).trans (accV_restart m c 0 h (Nat.zero_mod _)).symm
  | n + 1, h => by
    by_cases h0 : (n + 1) % 8 = 0
    · exact (rec_A m c ⟨n + 1, h⟩ h0).trans (accV_restart m c (n + 1) h h0).symm
    · rw [accV_step m c n h h0, ← rec_scratch c n (Nat.lt_of_succ_lt h)]
      by_cases h1 : (n + 1) % 8 = 7
      · exact rec_C m c ⟨n + 1, h⟩ h0 h1
      · exact rec_B m c ⟨n + 1, h⟩ h0 h1

/-- At a last step the output block is the finished accumulator scaled and shifted. -/
theorem rec_out (c : Dev nD) (t : Fin cfg0.N) (h7 : t.val % 8 = 7) :
    (outsAt0 m c t.val t.isLt).1 = k0_pay3 (iblk m c 2 t) (iblk m c 3 t) (accV m c t.val t.isLt) := by
  have h0 : ¬t.val % 8 = 0 := by omega
  rw [rec_C_out m c t h0 h7, ← rec_scratch m c t.val t.isLt, rec_C m c t h0 h7]

end AnyInstance

/-! ## The accumulator at one element, over the extended reals -/

section AtIdeal

variable (m : (ℓ : Loc nD τ sig) → Buf (Elt Ideal) ℓ)

/-- The four arrays the windows read, as the call finds them, as functions into the extended reals. -/
abbrev arr1 (c : Dev nD) : (⟨2, ![8192, 4096]⟩ : Shape).Idx → EReal := fun i => V m c main_v1 i
abbrev arr2 (c : Dev nD) : (⟨2, ![4096, 4096]⟩ : Shape).Idx → EReal := fun i => V m c main_v2 i
abbrev arr3 (c : Dev nD) : (⟨2, ![1, 4096]⟩ : Shape).Idx → EReal := fun i => V m c main_v3 i
abbrev arr4 (c : Dev nD) : (⟨2, ![1, 4096]⟩ : Shape).Idx → EReal := fun i => V m c main_v4 i

/-- One step at point n on an accumulator a: element (r, cc) gains the 512 products of the step's positions. -/
theorem step_apply (c : Dev nD) (n : ℕ) (h : n < cfg0.N) (a : Vec Ideal S1024x1024 .f32) (r cc : Fin 1024)
    (p : Fin 8192) (o : Fin 4096) (hp : p.val = 1024 * (n / 32) + r.val) (ho : o.val = 1024 * ((n / 8) % 4) + cc.val) :
    (k0_pay2 (F := Ideal) (iblk m c 0 ⟨n, h⟩) (iblk m c 1 ⟨n, h⟩) a (ix2 r cc) : EReal)
      = (a (ix2 r cc) : EReal) + ∑ i : Fin 512, term (arr1 m c) (arr2 m c) p o (512 * (n % 8) + i.val) := by
  refine (pay2_apply (iblk m c 0 ⟨n, h⟩) (iblk m c 1 ⟨n, h⟩) a r cc).trans ?_
  congr 1
  refine Finset.sum_congr rfl fun i _ => ?_
  have hk : 512 * (n % 8) + i.val < 4096 := by have := i.isLt; omega
  rw [term_lt (arr1 m c) (arr2 m c) p o _ ⟨512 * (n % 8) + i.val, hk⟩ rfl,
    blk0_apply m c ⟨n, h⟩ r i p ⟨512 * (n % 8) + i.val, hk⟩ hp rfl,
    blk1_apply m c ⟨n, h⟩ cc i o ⟨512 * (n % 8) + i.val, hk⟩ ho rfl]

theorem chain_zero (f : ℕ → EReal) : chain f 0 = 0 + ∑ i : Fin 512, f i.val := by rw [chain]
theorem chain_succ (f : ℕ → EReal) (k : ℕ) :
    chain f (k + 1) = chain f k + ∑ i : Fin 512, f (512 * (k + 1) + i.val) := by rw [chain]

/-- At a first step of a sweep the accumulator's element is zero plus the first block of products. -/
theorem restart_apply (c : Dev nD) (n : ℕ) (h : n < cfg0.N) (h0 : n % 8 = 0) (r cc : Fin 1024) (p : Fin 8192)
    (o : Fin 4096) (hp : p.val = 1024 * (n / 32) + r.val) (ho : o.val = 1024 * ((n / 8) % 4) + cc.val) :
    (accV (F := Ideal) m c n h (ix2 r cc) : EReal) = chain (term (arr1 m c) (arr2 m c) p o) (n % 8) := by
  rw [accV_restart m c n h h0, step_apply m c n h _ r cc p o hp ho, pay1_apply, h0, chain_zero]
  simp only [Nat.mul_zero, Nat.zero_add]

/-- The accumulator after point n at element (r, cc): the partial sum of the first n % 8 + 1 blocks of products of
    row 1024 (n / 32) + r of the activations and row 1024 ((n / 8) % 4) + cc of the weights. -/
theorem acc_apply (c : Dev nD) : ∀ (n : ℕ) (h : n < cfg0.N) (r cc : Fin 1024) (p : Fin 8192) (o : Fin 4096),
    p.val = 1024 * (n / 32) + r.val → o.val = 1024 * ((n / 8) % 4) + cc.val →
    (accV (F := Ideal) m c n h (ix2 r cc) : EReal) = chain (term (arr1 m c) (arr2 m c) p o) (n % 8)
  | 0, h, r, cc, p, o, hp, ho => restart_apply m c 0 h (Nat.zero_mod _) r cc p o hp ho
  | n + 1, h, r, cc, p, o, hp, ho => by
    by_cases h0 : (n + 1) % 8 = 0
    · exact restart_apply m c (n + 1) h h0 r cc p o hp ho
    · have e : (n + 1) % 8 = n % 8 + 1 := by omega
      rw [accV_step m c n h h0, step_apply m c (n + 1) h _ r cc p o hp ho,
        acc_apply c n (Nat.lt_of_succ_lt h) r cc p o (by omega) (by omega), e, chain_succ]

end AtIdeal

end Cert.KernelIdeal.RefValue

end
-- ==== Proof.Final.lean ====
/-
  The product array after the call, and the program's result.  The output block of tile (i, j) is written back once,
  at the last contraction step of the tile (the point 32 i + 8 j + 7), and there it holds the tile's elements of the
  product array; the 32 tiles cover the [8192, 4096] array, so the array ends holding the product array, and the
  host's last line views it as [4, 2048, 4096].
-/
import proofs.«173538_j81750407512101_2_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RefValue

open Cert.KernelIdeal Cert.KernelIdeal.Gen Cert.Bridge

variable (m : (ℓ : Loc nD τ sig) → Buf (Elt Ideal) ℓ) (ρ : Dev nD → PrngReg)

/-- The output window's block indices over the grid: row tile t / 32, column tile (t / 8) % 4. -/
theorem out_index : ∀ t : Fin cfg0.N, win0_4.index t (0 : Fin 2) = t.val / 32 ∧ win0_4.index t (1 : Fin 2) = (t.val / 8) % 4 :=
  (by decide +kernel : ∀ t : Fin grid0.N, win0_4.index t (0 : Fin 2) = t.val / 32 ∧ win0_4.index t (1 : Fin 2) = (t.val / 8) % 4)

/-- The product array of the four arrays as the call finds them. -/
abbrev prod (c : Dev nD) : Buf (Elt Ideal) ((c : Thread nD τ).loc main_v5) :=
  G2d (arr1 m c) (arr2 m c) (arr3 m c) (arr4 m c)

/-- At a last step, element j of the output block is the product array's element at the block's position. -/
theorem out_pt (c : Dev nD) (t : Fin cfg0.N) (h7 : t.val % 8 = 7) (j : S1024x1024.Idx) (i : S8192x4096.Idx)
    (h0 : (i 0).val = 1024 * (t.val / 32) + (j 0).val) (h1 : (i 1).val = 1024 * ((t.val / 8) % 4) + (j 1).val) :
    (k0_pay3 (F := Ideal) (iblk m c 2 t) (iblk m c 3 t) (accV m c t.val t.isLt) j : EReal) = prod m c i := by
  obtain ⟨r, cc, rfl⟩ : ∃ (r cc : Fin 1024), j = ix2 r cc := ⟨j 0, j 1, eq_ix2 j⟩
  refine (pay3_apply (iblk m c 2 t) (iblk m c 3 t) (accV m c t.val t.isLt) r cc).trans ?_
  rw [acc_apply m c t.val t.isLt r cc (i 0) (i 1) h0 h1, h7, blk2_apply m c t cc (i 1) h1, blk3_apply m c t cc (i 1) h1]
  rfl

/-- What a writing point writes back is its block of the product array. -/
theorem flushed_eq (c : Dev nD) (t : Fin cfg0.N) (hf : (cfg0.win 4).flush t = true) :
    (dats m 0 c).flushed 4 t = ((cfg0.win 4).blk t).view.read (Elt Ideal) (prod m c) := by
  have h7 : t.val % 8 = 7 := (flush0_4 t).mp hf
  obtain ⟨e0, e1⟩ := out_index t
  show (cfg0.win 4).cut (grid0.coords t) ((dats m 0 c).after 4 t) = _
  rw [after0_4, rec_out m c t h7]
  funext j
  show (k0_pay3 (F := Ideal) (iblk m c 2 t) (iblk m c 3 t) (accV m c t.val t.isLt) j : EReal)
    = prod m c (((cfg0.win 4).blk t).view.emb j)
  exact out_pt m c t h7 j _
    (by show win0_4.index t (0 : Fin 2) * 1024 + 1 * (j 0).val = _; rw [e0]; omega)
    (by show win0_4.index t (1 : Fin 2) * 1024 + 1 * (j 1).val = _; rw [e1]; omega)

/-- An index of the product array is in point t's block iff each coordinate is in the block's range. -/
theorem mem_out_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v5).slice (win0_4.rect t)).set ↔ _
  rw [View.set_slice_whole, Rect.mem_set_unit]
  exact Iff.rfl

/-- Every element of the product array is in the block of its tile's last step. -/
theorem cover (i : S8192x4096.Idx) :
    ∃ t : Fin cfg0.N, (cfg0.win 4).flush t = true ∧ i ∈ ((cfg0.win 4).blk t).view.set := by
  have hN : cfg0.N = 256 := N_0
  have h0 : (i 0).val < 8192 := (i 0).isLt
  have h1 : (i 1).val < 4096 := (i 1).isLt
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨e0, e1⟩ := out_index t
  refine ⟨t, (flush0_4 t).mpr (by omega), ?_⟩
  rw [mem_out_blk]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- So the call leaves the product array in its result. -/
theorem final (c : Dev nD) : (dats m 0 c).arrAt 4 cfg0.N = prod m c :=
  (dats m 0 c).arrAt_eq_of_cover 4 (prod m c) (flushed_eq m c) cover

/-- The program's result: the product array viewed as [4, 2048, 4096]. -/
abbrev result (c : Dev nD) : Buf (Elt Ideal) ((c : Thread nD τ).loc main_v6) :=
  shapeCast S4x2048x4096 (prod m c) shapeCasts_S8192x4096_S4x2048x4096

/-- The host line after the call computes it from the call's result array. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v5) = prod m c :=
    (Pipeline.withArrays_arr spec0 launch0.win.arr_inj c _ _ 4).trans (final m c)
  rw [e]
  rfl

/-- The run, read: the result at the reshaped product array, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RefValue

end
-- ==== Proof.HostPrefix.lean ====
/-
  The four arrays the kernel's windows read, as the host lines before the call leave them, at one element: the
  activations flattened from [4, 2048, 4096] to [8192, 4096] (row 2048 b + s is (b, s); the change of float format
  is the identity on the extended reals), the integer weights as the reals they denote, and the scale and bias
  vectors laid as one-row tables.
-/
import proofs.«173538_j81750407512101_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.RefValue

open Cert.KernelIdeal Cert.KernelIdeal.Gen

variable (m : (ℓ : Loc nD τ sig) → Buf (Elt Ideal) ℓ)

/-- The first window's array as the host lines leave it: the activations recast from [4, 2048, 4096] to
    [8192, 4096], then changed of float format. -/
theorem v1_eq (c : Dev nD) :
    (V m c main_v1 : S8192x4096.Idx → EReal)
      = (truncf (F := Ideal) .bf16 (shapeCast S8192x4096 (m ((c : Thread nD τ).loc main_arg0)) shapeCasts_S4x2048x4096_S8192x4096) bitsLt_bf16_f32 : FVec Ideal S8192x4096 .bf16) := by
  show StableHlo.after hostOps0 (fun b => m (c, b)) (Proc.devRef .tc main_v1) = _
  after_results
  rfl

/-- The second window's array: the integer weights converted to floats, entry by entry. -/
theorem v2_eq (c : Dev nD) :
    (V m c main_v2 : S4096x4096.Idx → EReal)
      = (sitofp (F := Ideal) .bf16 (m ((c : Thread nD τ).loc main_arg1)) : FVec Ideal S4096x4096 .bf16) := by
  show StableHlo.after hostOps0 (fun b => m (c, b)) (Proc.devRef .tc main_v2) = _
  after_results

/-- The third window's array: the scale vector recast from [4096] to [1, 4096]. -/
theorem v3_eq (c : Dev nD) :
    (V m c main_v3 : S1x4096.Idx → EReal)
      = shapeCast S1x4096 (m ((c : Thread nD τ).loc main_arg2)) shapeCasts_S4096_S1x4096 := by
  show StableHlo.after hostOps0 (fun b => m (c, b)) (Proc.devRef .tc main_v3) = _
  after_results
  rfl

/-- The fourth window's array: the bias vector recast from [4096] to [1, 4096]. -/
theorem v4_eq (c : Dev nD) :
    (V m c main_v4 : S1x4096.Idx → EReal)
      = shapeCast S1x4096 (m ((c : Thread nD τ).loc main_arg3)) shapeCasts_S4096_S1x4096 := by
  show StableHlo.after hostOps0 (fun b => m (c, b)) (Proc.devRef .tc main_v4) = _
  after_results
  rfl

/-- The flattened activations: row 2048 b + s, position kk, is the argument's element (b, s, kk). -/
theorem v1_apply (c : Dev nD) (p : Fin 8192) (kk : Fin 4096) (b : Fin 4) (s : Fin 2048) (hp : p.val = 2048 * b.val + s.val) :
    (V m c main_v1 (ix2 p kk) : EReal) = m ((c : Thread nD τ).loc main_arg0) (ix3 b s kk) := by
  -- the change of float format is the identity on the extended reals
  rw [v1_eq m c, truncf_apply]
  -- a recast keeps the row-major position: (2048 b + s) · 4096 + kk on both sides
  refine shapeCast_apply _ _ _ _ ?_
  show (S4x2048x4096.rowMajor (ix3 b s kk)).val = (S8192x4096.rowMajor (ix2 p kk)).val
  rw [Shape.rowMajor_val_three, Shape.rowMajor_val_two]
  show (b.val * 2048 + s.val) * 4096 + kk.val = p.val * 4096 + kk.val
  rw [hp]; omega

/-- The weights as reals: element (o, kk) is the integer the argument holds there. -/
theorem v2_apply (c : Dev nD) (o kk : Fin 4096) :
    (V m c main_v2 (ix2 o kk) : EReal) = (((m ((c : Thread nD τ).loc main_arg1) (ix2 o kk)).toInt : ℝ) : EReal) := by
  -- on the extended reals an integer-to-float conversion gives the (signed) integer itself
  rw [v2_eq m c, sitofp_apply]
  rfl

/-- The scale vector as a one-row table. -/
theorem v3_apply (c : Dev nD) (o : Fin 4096) :
    (V m c main_v3 (ix2 0 o) : EReal) = m ((c : Thread nD τ).loc main_arg2) (ix1 o) := by
  rw [v3_eq m c]
  exact shapeCast_a_1a_apply _ _ 0 o

/-- The bias vector as a one-row table. -/
theorem v4_apply (c : Dev nD) (o : Fin 4096) :
    (V m c main_v4 (ix2 0 o) : EReal) = m ((c : Thread nD τ).loc main_arg3) (ix1 o) := by
  rw [v4_eq m c]
  exact shapeCast_a_1a_apply _ _ 0 o

end Cert.KernelIdeal.RefValue

end
-- ==== Proof.Tail.lean ====
/-
  The host line after the call: the [8192, 4096] product array viewed as [4, 2048, 4096].  Element (b, s, o) of the
  result is element (2048 b + s, o) of the product array (the same row-major position).
-/
import proofs.«173538_j81750407512101_2_alg».proof.KernelIdeal
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.RefValue

open Cert.KernelIdeal

variable [Cert.KernelIdeal.Facts]
open Cert.KernelIdeal.Facts₀ Cert.KernelIdeal.Facts

theorem unflatten_apply {α : Type} (G : S8192x4096.Idx → α) (b : Fin 4) (s : Fin 2048) (o : Fin 4096) (p : Fin 8192)
    (hp : p.val = 2048 * b.val + s.val) :
    shapeCast S4x2048x4096 G shapeCasts_S8192x4096_S4x2048x4096 (ix3 b s o) = G (ix2 p o) := by
  -- both indices have the row-major position (2048 b + s) * 4096 + o
  refine shapeCast_apply G shapeCasts_S8192x4096_S4x2048x4096 _ _ ?_
  rw [Shape.rowMajor_val_two, Shape.rowMajor_val_three]
  show p.val * 4096 + o.val = (b.val * 2048 + s.val) * 4096 + o.val
  omega

end Cert.KernelIdeal.RefValue

end
-- ==== Proof.RefRead.lean ====
/-
  The reference at one element of its result, over the extended reals: at (b, s, o) it is the sum over the 4096
  contraction positions k of the activation (b, s, k) times the dequantized weight (the integer weight (o, k) as a
  real, times the scale of row o), plus the bias of column o.
-/
import proofs.«173538_j81750407512101_2_alg».proof.Proof.Gen.ReferenceIdeal.Read
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

theorem ref_apply (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) (b : Fin 4) (s : Fin 2048) (o : Fin 4096) :
    (val_main_v7 (F := Ideal) x0 x1 x2 x3 (ix3 b s o) : EReal)
      = (∑ k : Fin 4096, (x0 (ix3 b s k) : EReal) * ((((x1 (ix2 o k)).toInt : ℝ) : EReal) * (x2 (ix1 o) : EReal))) + (x3 (ix1 o) : EReal) := by
  -- The composed index maps of the reference's stages, at the element (b, s, o) and contraction position k.
  have e1 : ∀ k : Fin 4096, lidx_main_v4 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v4 (ix3 b s o) k = ix2 o k := fun k => funext fun a => Fin.ext (by
    match a with
    | ⟨0, _⟩ => rfl
    | ⟨1, _⟩ => rfl)
  have e3 : ∀ k : Fin 4096, idx_main_v1 (idx_main_v2 (ix2 o k)) = ix1 o := fun k => funext fun a => Fin.ext (by
    match a with
    | ⟨0, _⟩ => rfl)
  have e4 : idx_main_v5 (idx_main_v6 (ix3 b s o)) = ix1 o := funext fun a => Fin.ext (by
    match a with
    | ⟨0, _⟩ => rfl)
  rw [val_main_v7_apply, val_main_v4_apply, val_main_v6_apply, val_main_v5_apply, e4]
  simp only [val_main_v3_apply, val_main_v0_apply, val_main_v2_apply, val_main_v1_apply, e1, e2, e3,
    Ideal.mulf_def, Ideal.addf_def]
  rfl

end Cert.ReferenceIdeal.RefValue

end
-- ==== Proof.Finite.lean ====
/-
  What the precondition says element by element: every activation, every scale and every bias is a real number
  (neither infinity).
-/
import proofs.«173538_j81750407512101_2_alg».proof.Pre_finite_inputs
import Idealize.ShloMosaic.PureOps.Ideal
import Idealize.ShloMosaic.Lib.ValueIdx
import Idealize.ShloMosaic.Lib.ReduceAll

noncomputable section

open Idealize.ShloMosaic Idealize.ShloMosaic.ValueIdx

namespace Cert.Bridge

open Cert.Pre_finite_inputs

/-- The result of a reduction over every axis has exactly one index. -/
instance : Subsingleton S_.Idx := ⟨fun a b => funext fun d => d.elim0⟩

/-- An extended real whose absolute value max a (-a) lies strictly below +∞ is a real number: at either infinity the
    absolute value is +∞ itself. The pattern 0x7F800000 (sign clear, exponent all ones, fraction zero) denotes +∞. -/
theorem real_of_abs_lt_inf (a : Ideal .f32)
    (h : FloatOps.cmpf .olt (FloatOps.hostAbsf a) (FloatOps.ofBits (F := Ideal) .f32 0x7F800000#32) = 1#1) :
    ∃ r : ℝ, (a : EReal) = (r : EReal) := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  unfold Ideal.cmp at h'
  have hlt : max (a : EReal) (-(a : EReal)) < ⊤ := by
    by_contra hn
    simp [hn] at h'
  clear h h' htop
  induction a using EReal.rec with
  | bot => simp at hlt
  | top => simp at hlt
  | coe r => exact ⟨r, rfl⟩

theorem finite_of_pre [Cert.Pre_finite_inputs.Facts] (x0 : FVec Ideal S4x2048x4096 .f32) (x1 : IVec S4096x4096 32)
    (x2 x3 : FVec Ideal S4096 .f32)
    (h : Cert.Pre_finite_inputs.fn (F := Ideal) x0 x1 x2 x3 = fun _ => 1#1) :
    (∀ i, ∃ r : ℝ, (x0 i : EReal) = (r : EReal)) ∧ (∀ i, ∃ r : ℝ, (x2 i : EReal) = (r : EReal))
      ∧ (∀ i, ∃ r : ℝ, (x3 i : EReal) = (r : EReal)) := by
  -- the precondition is a conjunction of three "all elements satisfy |x| < +∞", one per float input
  have e := congrFun h ValueIdx.ix0
  dsimp only [Cert.Pre_finite_inputs.fn, andi] at e
  rw [IntOp.andi_eq_one, IntOp.andi_eq_one] at e
  obtain ⟨⟨e0, e2⟩, e3⟩ := e
  exact ⟨fun i => real_of_abs_lt_inf (x0 i) (Host.reduce_andi_all _ _ _ _ _ e0 i),
    fun i => real_of_abs_lt_inf (x2 i) (Host.reduce_andi_all _ _ _ _ _ e2 i),
    fun i => real_of_abs_lt_inf (x3 i) (Host.reduce_andi_all _ _ _ _ _ e3 i)⟩

end Cert.Bridge

end
-- ==== Proof.Bridge.lean ====
/-
  The kernel's function and the reference's are one function of the arguments.  Element (p, o) of the product array
  is (the sum over k of x (p, k) · w (o, k)) · scale (o) + bias (o), the eight-step accumulator being the whole sum;
  the reference's element is the sum over k of x (p, k) · (w (o, k) · scale (o)), plus bias (o).  The two agree by
  distributivity, which needs the activations, the weights (integers) and the scale to be real numbers.
-/
import proofs.«173538_j81750407512101_2_alg».proof.Proof.Spec

noncomputable section

open Idealize.ShloMosaic Idealize.ShloMosaic.ValueIdx

namespace Cert.Bridge

theorem kernel_eq_reference
    (A1 : (⟨2, ![8192, 4096]⟩ : Shape).Idx → EReal) (A2 : (⟨2, ![4096, 4096]⟩ : Shape).Idx → EReal)
    (A3 A4 : (⟨2, ![1, 4096]⟩ : Shape).Idx → EReal)
    (x0 : (⟨3, ![4, 2048, 4096]⟩ : Shape).Idx → EReal) (x1 : (⟨2, ![4096, 4096]⟩ : Shape).Idx → BitVec 32)
    (x2 x3 : (⟨1, ![4096]⟩ : Shape).Idx → EReal)
    (hA1 : ∀ (p : Fin 8192) (kk : Fin 4096) (b : Fin 4) (s : Fin 2048), p.val = 2048 * b.val + s.val →
      A1 (ix2 p kk) = x0 (ix3 b s kk))
    (hA2 : ∀ o kk : Fin 4096, A2 (ix2 o kk) = (((x1 (ix2 o kk)).toInt : ℝ) : EReal))
    (hA3 : ∀ o : Fin 4096, A3 (ix2 0 o) = x2 (ix1 o))
    (hA4 : ∀ o : Fin 4096, A4 (ix2 0 o) = x3 (ix1 o))
    (hx0 : ∀ i, ∃ r : ℝ, x0 i = (r : EReal)) (hx2 : ∀ i, ∃ r : ℝ, x2 i = (r : EReal))
    (b : Fin 4) (s : Fin 2048) (o : Fin 4096) (p : Fin 8192) (hp : p.val = 2048 * b.val + s.val) :
    G2d A1 A2 A3 A4 (ix2 p o)
      = (∑ k : Fin 4096, x0 (ix3 b s k) * ((((x1 (ix2 o k)).toInt : ℝ) : EReal) * x2 (ix1 o))) + x3 (ix1 o) := by
  -- Each of the 4096 products, read through the hypotheses on the four arrays.
  have hsum : (∑ k : Fin 4096, term A1 A2 p o k.val)
      = ∑ k : Fin 4096, x0 (ix3 b s k) * (((x1 (ix2 o k)).toInt : ℝ) : EReal) :=
    Finset.sum_congr rfl fun k _ => by rw [term_lt A1 A2 p o k.val k rfl, hA1 p k b s hp, hA2 o k]
  -- Distributivity: the activations, the integer weights and the scale are real numbers.
  have hdist := sum_mul_of_real (fun k : Fin 4096 => x0 (ix3 b s k))
    (fun k : Fin 4096 => (((x1 (ix2 o k)).toInt : ℝ) : EReal)) (x2 (ix1 o))
    (fun k => hx0 _) (fun k => ⟨_, rfl⟩) (hx2 _)
  -- The coordinates of the index (p, o) are p and o.
  show chain (term A1 A2 p o) 7 * A3 (ix2 0 o) + A4 (ix2 0 o) = _
  rw [chain_eq_sum, hsum, hA3 o, hA4 o]
  exact congrArg (· + x3 (ix1 o)) hdist

end Cert.Bridge

end
-- ==== Proof.lean ====
/-
  The kernel computes y[m, o] = (sum over i of x[m, i] · w[o, i]) · scale[o] + bias[o] on the flattened activations,
  accumulating the contraction in eight blocks of 512 positions per output tile; the reference computes
  y[b, s, o] = (sum over i of x[b, s, i] · (w[o, i] · scale[o])) + bias[o].  Over the extended reals the eight-block
  accumulator is the whole sum (addition is associative and commutative), and the scale moves inside the sum by
  distributivity, which holds because the precondition makes every activation and every scale a real number and the
  weights are integers.  The three frames are the generated ones (the reference's is its run with the result dropped);
  the ideal pass rewrote nothing, so the preservation claim is trivial.
-/
import proofs.«173538_j81750407512101_2_alg».proof.Defs
import proofs.«173538_j81750407512101_2_alg».proof.Proof.Gen.Kernel
import proofs.«173538_j81750407512101_2_alg».proof.Proof.Gen.Kernel.Skeleton
import proofs.«173538_j81750407512101_2_alg».proof.Proof.Gen.Kernel.Launch
import proofs.«173538_j81750407512101_2_alg».proof.Proof.Gen.Kernel.Points
import proofs.«173538_j81750407512101_2_alg».proof.Proof.Gen.Kernel.Frame
import proofs.«173538_j81750407512101_2_alg».proof.Proof.Gen.KernelIdeal
import proofs.«173538_j81750407512101_2_alg».proof.Proof.Gen.KernelIdeal.Skeleton
import proofs.«173538_j81750407512101_2_alg».proof.Proof.Gen.KernelIdeal.Launch
import proofs.«173538_j81750407512101_2_alg».proof.Proof.Gen.KernelIdeal.Points
import proofs.«173538_j81750407512101_2_alg».proof.Proof.Gen.KernelIdeal.Frame
import proofs.«173538_j81750407512101_2_alg».proof.Proof.Gen.ReferenceIdeal
import proofs.«173538_j81750407512101_2_alg».proof.Proof.Gen.ReferenceIdeal.Run
import proofs.«173538_j81750407512101_2_alg».proof.Proof.Gen.ReferenceIdeal.Read
import proofs.«173538_j81750407512101_2_alg».proof.Proof.Gen.Pre_finite_inputs
import proofs.«173538_j81750407512101_2_alg».proof.Proof.Final
import proofs.«173538_j81750407512101_2_alg».proof.Proof.HostPrefix
import proofs.«173538_j81750407512101_2_alg».proof.Proof.Tail
import proofs.«173538_j81750407512101_2_alg».proof.Proof.RefRead
import proofs.«173538_j81750407512101_2_alg».proof.Proof.Finite
import proofs.«173538_j81750407512101_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same [4, 2048, 4096] array: element (b, s, o) of the kernel's result is element
    (2048 b + s, o) of the product array, which is the reference's element (b, s, o). -/
theorem algebraic : Cert.algebraic_KernelIdeal_ReferenceIdeal := by
  intro m ρ m' ρ' hpre hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v7_eq]
  obtain ⟨hx0, hx2, _⟩ := Cert.Bridge.finite_of_pre _ _ _ _ (hpre c)
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [Cert.ReferenceIdeal.RefValue.ref_apply]
  show _ = shapeCast Cert.KernelIdeal.S4x2048x4096 (Cert.KernelIdeal.RefValue.prod m c)
    Cert.KernelIdeal.Facts₀.shapeCasts_S8192x4096_S4x2048x4096 (ix3 b s o)
  rw [Cert.KernelIdeal.RefValue.unflatten_apply _ b s o ⟨2048 * b.val + s.val, by omega⟩ rfl]
  exact (Cert.Bridge.kernel_eq_reference _ _ _ _ _ _ _ _
    (Cert.KernelIdeal.RefValue.v1_apply m c) (Cert.KernelIdeal.RefValue.v2_apply m c)
    (Cert.KernelIdeal.RefValue.v3_apply m c) (Cert.KernelIdeal.RefValue.v4_apply m c) hx0 hx2 b s o _ rfl).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
